-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x800000 32) (main_arg2 : FVec F S128x128 .f32) (main_arg3 : FVec F S128x128 .f32) (main_arg4 : FVec F S128 .f32) (main_arg5 : FVec F S128x40 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S100000x128, .f32⟩
  | .hbm, ⟨50, _⟩ => ⟨S800000x1, .i32⟩
  | .hbm, ⟨51, _⟩ => ⟨S100000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S100000, .f32⟩
  | .hbm, ⟨56, _⟩ => ⟨S800000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x40, .f32⟩
  | .hbm, ⟨65, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x40, .f32⟩
  | .local _ .vmem, ⟨14, _⟩ => ⟨S128x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S100000x128, .f32⟩
  | .hbm, ⟨57, _⟩ => ⟨S800000x1, .i32⟩
  | .hbm, ⟨58, _⟩ => ⟨S100000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S100000, .f32⟩
  | .hbm, ⟨63, _⟩ => ⟨S800000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S100000x40, .f32⟩
  | .hbm, ⟨73, _⟩ => ⟨S100000x40, .f32⟩
  | .hbm, ⟨74, _⟩ => ⟨S1x40, .f32⟩
  | .hbm, ⟨75, _⟩ => ⟨S100000x40, .f32⟩
  | .hbm, ⟨76, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.Body0.lean ====
/-
  What one grid point of the first layer's kernel stores, read at an entry of its block.

  The body loads a block of 5000 rows of the neighbour means and the same 5000 rows of the node features (each [5000, 128]),
  the two whole weight matrices ([128, 128]) and the bias as a row ([1, 128]); it narrows the four matrices to bf16, which over
  the extended reals changes nothing, multiplies means by the left weights and features by the right weights into zero
  accumulators, adds the two products, adds the bias row spread down the 5000 rows, then the rectifier max(·, 0), whose zero is the float literal 0.0.
  So entry (p, j) of the stored block is

      max((Σ_k means(p, k) · Wl(k, j) + Σ_k feats(p, k) · Wr(k, j)) + bias(0, j), 0),

  the sums over the 128 input features: a product into a zero accumulator is the plain sum (0 + s = s on the extended reals),
  and the contraction is of the left operand's columns with the right operand's rows.
-/
import proofs.«181931_j19542101197287_1_alg».proof.Proof.Gen.KernelIdeal.Frame
import proofs.«181931_j19542101197287_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body0

open Idealize.ShloMosaic Idealize.ShloMosaic.ValueIdx Cert.KernelIdeal Cert.KernelIdeal.Gen

/-- Every load and the store of the body start at the origin of their buffers. -/
theorem hz : (![0, 0] : Fin 2 → Nat) = fun _ => 0 := funext fun a => by fin_cases a <;> rfl

/-- The body's two products are plain [5000, 128] × [128, 128] products: the left operand is read at (row, k), the right at
    (k, column), k over the one contracted axis of extent 128. -/
theorem plain : PlainDot.IsPlain (M := 5000) (K := 128) (N := 128) dot_S5000x128_S128x128_S5000x128_1_0_0_1_n_n where
  rank := rfl
  size := rfl
  lhs0 i q := by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  lhs1 i q := dot_S5000x128_S128x128_S5000x128_1_0_0_1_n_n.lhsIdx_val_of_single rfl i q
  rhs0 i q := dot_S5000x128_S128x128_S5000x128_1_0_0_1_n_n.rhsIdx_val_of_single rfl i q
  rhs1 i q := by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- Entry (p, j) of the block the body stores, from the five blocks it loads: the means' and the features' rows p against
    column j of the two weight matrices, plus the bias at j, rectified. -/
theorem stored_apply (x0 x1 : Vec Ideal S5000x128 .f32) (x2 x3 : Vec Ideal S128x128 .f32) (x4 : Vec Ideal S1x128 .f32)
    (p : Fin 5000) (j : Fin 128) :
    out0_5 (F := Ideal) x0 x1 x2 x3 x4 (ix2 p j)
      = max ((∑ k : Fin 128, x0 (ix2 p k) * x2 (ix2 k j) + ∑ k : Fin 128, x1 (ix2 p k) * x3 (ix2 k j)) + x4 (ix2 (0 : Fin 1) j)) 0 := by
  unfold out0_5
  rw [View.canon_unit_zero hz]
  simp only [View.ld_unit_zero (S := S5000x128) hz, View.ld_unit_zero (S := S128x128) hz, View.ld_unit_zero (S := S1x128) hz]
  unfold k0_pay1
  simp only [shapeCast_self]
  show max ((FloatOps.matmul dot_S5000x128_S128x128_S5000x128_1_0_0_1_n_n none (truncf FTy.bf16 x0 bitsLt_bf16_f32) (truncf FTy.bf16 x2 bitsLt_bf16_f32) (constant (F := Ideal) S5000x128 FTy.f32 0x00000000#32) (ix2 p j)
      + FloatOps.matmul dot_S5000x128_S128x128_S5000x128_1_0_0_1_n_n none (truncf FTy.bf16 x1 bitsLt_bf16_f32) (truncf FTy.bf16 x3 bitsLt_bf16_f32) (constant (F := Ideal) S5000x128 FTy.f32 0x00000000#32) (ix2 p j))
      + broadcastTo S5000x128 x4 broadcasts_S1x128_S5000x128 (ix2 p j)) (Ideal.ofBits .f32 0x00000000#32) = _
  refine congrArg₂ max (congrArg₂ (· + ·) (congrArg₂ (· + ·) ?_ ?_) ?_) Ideal.ofBits_zero_f32
  · exact PlainDot.matmul_zero_apply _ plain none _ _ p j
  · exact PlainDot.matmul_zero_apply _ plain none _ _ p j
  · exact broadcastTo_1b_ab_apply x4 broadcasts_S1x128_S5000x128 p j

end Cert.KernelIdeal.Body0

end
-- ==== Proof.Spec.lean ====
/-
  The mathematics of the two programs, with no program in sight.

  A GraphSAGE layer combines, for every node r and output feature j, the mean of the node's in-neighbours' features with the
  node's own features:

      combine(r, j) = (Σ_k mean(r, k) · Wl(k, j) + Σ_k x(r, k) · Wr(k, j)) + b(j),

  over the extended reals, the contracted axis k running over the input features. The first layer is followed by the rectifier
  max(·, 0); the second is not. The network is the second layer applied to the rectified first one, each layer taking as
  `mean` the neighbour aggregate `A` of the features it is given. Here `A` is any function from feature arrays to feature
  arrays: both programs compute the aggregate by the same chain of host operations, and nothing below looks inside it.

  Sums are written over `Fin K` in the order (left product, right product, bias): addition of extended reals is commutative and
  associative, and no step below distributes a product over a sum, so no finiteness of the entries is ever asked for.
-/
import Idealize.ShloMosaic.Lib.ValueIdx
import Idealize.ShloMosaic.PureOps.Ideal

noncomputable section

namespace SageLayer

open Idealize.ShloMosaic Idealize.ShloMosaic.ValueIdx

variable {N K D : Nat}

/-- Entry (r, j) of mean · Wl + x · Wr + b, the bias given per output feature. -/
def combineAt (mean x : (⟨2, ![N, K]⟩ : Shape).Idx → EReal) (wl wr : (⟨2, ![K, D]⟩ : Shape).Idx → EReal) (b : Fin D → EReal)
    (r : Fin N) (j : Fin D) : EReal :=
  (∑ k : Fin K, mean (ix2 r k) * wl (ix2 k j) + ∑ k : Fin K, x (ix2 r k) * wr (ix2 k j)) + b j

/-- The whole array mean · Wl + x · Wr + b, index by index. -/
def combine (mean x : (⟨2, ![N, K]⟩ : Shape).Idx → EReal) (wl wr : (⟨2, ![K, D]⟩ : Shape).Idx → EReal) (b : Fin D → EReal) :
    (⟨2, ![N, D]⟩ : Shape).Idx → EReal :=
  fun i => combineAt mean x wl wr b ⟨(i 0).val, idx2_lt0 i⟩ ⟨(i 1).val, idx2_lt1 i⟩

/-- The rectified layer max(mean · Wl + x · Wr + b, 0), index by index. -/
def reluCombine (mean x : (⟨2, ![N, K]⟩ : Shape).Idx → EReal) (wl wr : (⟨2, ![K, D]⟩ : Shape).Idx → EReal) (b : Fin D → EReal) :
    (⟨2, ![N, D]⟩ : Shape).Idx → EReal :=
  fun i => max (combine mean x wl wr b i) 0

theorem combine_ix2 (mean x : (⟨2, ![N, K]⟩ : Shape).Idx → EReal) (wl wr : (⟨2, ![K, D]⟩ : Shape).Idx → EReal) (b : Fin D → EReal)
    (r : Fin N) (j : Fin D) : combine mean x wl wr b (ix2 r j) = combineAt mean x wl wr b r j := rfl

theorem reluCombine_ix2 (mean x : (⟨2, ![N, K]⟩ : Shape).Idx → EReal) (wl wr : (⟨2, ![K, D]⟩ : Shape).Idx → EReal) (b : Fin D → EReal)
    (r : Fin N) (j : Fin D) : reluCombine mean x wl wr b (ix2 r j) = max (combineAt mean x wl wr b r j) 0 := rfl

/-- The two-layer network over a neighbour aggregate `A`: the hidden features are the rectified first layer of x, the output the
    second layer of the hidden features. -/
def network {H : Nat} (A : ((⟨2, ![N, K]⟩ : Shape).Idx → EReal) → (⟨2, ![N, K]⟩ : Shape).Idx → EReal)
    (x : (⟨2, ![N, K]⟩ : Shape).Idx → EReal) (w1l w1r : (⟨2, ![K, K]⟩ : Shape).Idx → EReal) (b1 : Fin K → EReal)
    (w2l w2r : (⟨2, ![K, H]⟩ : Shape).Idx → EReal) (b2 : Fin H → EReal) : (⟨2, ![N, H]⟩ : Shape).Idx → EReal :=
  combine (A (reluCombine (A x) x w1l w1r b1)) (reluCombine (A x) x w1l w1r b1) w2l w2r b2

end SageLayer

end
-- ==== Proof.Region0.lean ====
/-
  The first layer's result array after its pallas_call, as one function of the arrays the call finds.

  The grid has 20 points. At point t the call fetches rows 5000·t … 5000·t + 4999 of the neighbour means and of the node
  features, the whole of the two weight matrices and of the bias row (their block index is (0, 0) at every point), runs the
  body, and writes the stored block back to rows 5000·t … 5000·t + 4999 of the result. The 20 blocks tile the 100000 rows, so
  row r of the result is written by point r / 5000 and by no other, and entry (r, j) is the body's entry (r − 5000·(r / 5000), j)
  at that point: the rectified combine of row r of the means and of the features with column j of the weights and the bias at j.
  The blocking of the rows does not show in the result: each entry's sums run over the 128 input features only.
-/
import proofs.«181931_j19542101197287_1_alg».proof.Proof.Body0
import proofs.«181931_j19542101197287_1_alg».proof.Proof.Spec

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The result array the call leaves, from the arrays it finds: the rectified combine of the means and the features with
    the two weight matrices and the bias row. -/
def result (c : Dev nD) : S100000x128.Idx → EReal :=
  SageLayer.reluCombine (N := 100000) (K := 128) (D := 128) (V c main_v22) (V c main_arg0) (V c main_arg2) (V c main_arg3) (fun j => V c main_v23 (ix2 (0 : Fin 1) j))

/-- The printed index maps, decided over the 20 points: the row blocks of the means, the features and the result move with the
    point; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry y of the means' block at point t is the means at row 5000·t + y₀, column y₁. -/
theorem means_blk (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_v22 : S100000x128.Idx → EReal) i := by
  obtain ⟨e, e', -⟩ := idx_facts t
  unfold iblk0
  rw [View.read_apply]
  show V c main_v22 _ = V c main_v22 _
  refine congrArg _ (funext fun a => Fin.ext ?_)
  match a with
  | ⟨0, _⟩ => show win0_0.index t (0 : Fin 2) * 5000 + 1 * (y 0).val = (i 0).val; rw [e, h0]; omega
  | ⟨1, _⟩ => show win0_0.index t (1 : Fin 2) * 128 + 1 * (y 1).val = (i 1).val; rw [e', h1]; omega

/-- Entry y of the features' block at point t is the features at row 5000·t + y₀, column y₁. -/
theorem feats_blk (c : Dev nD) (t : Fin cfg0.N) (y : S5000x128.Idx) (i : S100000x128.Idx)
    (h0 : (i 0).val = 5000 * t.val + (y 0).val) (h1 : (i 1).val = (y 1).val) :
    (iblk0 V c 1 t : Vec Ideal S5000x128 .f32) y = (V c main_arg0 : S100000x128.Idx → EReal) i := by
  obtain ⟨-, -, e, e', -⟩ := idx_facts t
  unfold iblk0
  rw [View.read_apply]
  show V c main_arg0 _ = V c main_arg0 _
  refine congrArg _ (funext fun a => Fin.ext ?_)
  match a with
  | ⟨0, _⟩ => show win0_1.index t (0 : Fin 2) * 5000 + 1 * (y 0).val = (i 0).val; rw [e, h0]; omega
  | ⟨1, _⟩ => show win0_1.index t (1 : Fin 2) * 128 + 1 * (y 1).val = (i 1).val; rw [e', h1]; omega

/-- The left weights' block is the whole matrix at every point. -/
theorem wl_blk (c : Dev nD) (t : Fin cfg0.N) (y : S128x128.Idx) :
    (iblk0 V c 2 t : Vec Ideal S128x128 .f32) y = (V c main_arg2 : S128x128.Idx → EReal) y := by
  obtain ⟨-, -, -, -, e, e', -⟩ := idx_facts t
  unfold iblk0
  rw [View.read_apply]
  show V c main_arg2 _ = V c main_arg2 _
  refine congrArg _ (funext fun a => Fin.ext ?_)
  match a with
  | ⟨0, _⟩ => show win0_2.index t (0 : Fin 2) * 128 + 1 * (y 0).val = (y 0).val; rw [e]; omega
  | ⟨1, _⟩ => show win0_2.index t (1 : Fin 2) * 128 + 1 * (y 1).val = (y 1).val; rw [e']; omega

/-- The right weights' block is the whole matrix at every point. -/
theorem wr_blk (c : Dev nD) (t : Fin cfg0.N) (y : S128x128.Idx) :
    (iblk0 V c 3 t : Vec Ideal S128x128 .f32) y = (V c main_arg3 : S128x128.Idx → EReal) y := by
  obtain ⟨-, -, -, -, -, -, e, e', -⟩ := idx_facts t
  unfold iblk0
  rw [View.read_apply]
  show V c main_arg3 _ = V c main_arg3 _
  refine congrArg _ (funext fun a => Fin.ext ?_)
  match a with
  | ⟨0, _⟩ => show win0_3.index t (0 : Fin 2) * 128 + 1 * (y 0).val = (y 0).val; rw [e]; omega
  | ⟨1, _⟩ => show win0_3.index t (1 : Fin 2) * 128 + 1 * (y 1).val = (y 1).val; rw [e']; omega

/-- The bias row's block is the whole row at every point. -/
theorem bias_blk (c : Dev nD) (t : Fin cfg0.N) (y : S1x128.Idx) :
    (iblk0 V c 4 t : Vec Ideal S1x128 .f32) y = (V c main_v23 : S1x128.Idx → EReal) y := by
  obtain ⟨-, -, -, -, -, -, -, -, e, e', -⟩ := idx_facts t
  unfold iblk0
  rw [View.read_apply]
  show V c main_v23 _ = V c main_v23 _
  refine congrArg _ (funext fun a => Fin.ext ?_)
  match a with
  | ⟨0, _⟩ => show win0_4.index t (0 : Fin 2) * 1 + 1 * (y 0).val = (y 0).val; rw [e]; omega
  | ⟨1, _⟩ => show win0_4.index t (1 : Fin 2) * 128 + 1 * (y 1).val = (y 1).val; rw [e']; omega

/-- What point t writes back is block t of `result`: rows 5000·t … 5000·t + 4999. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  obtain ⟨-, -, -, -, -, -, -, -, -, -, e, e'⟩ := idx_facts t
  funext y
  obtain ⟨p, j, rfl⟩ : ∃ (p : Fin 5000) (j : Fin 128), y = ix2 p j := ⟨y 0, y 1, eq_ix2 y⟩
  show out0_5 (iblk0 V c 0 t) (iblk0 V c 1 t) (iblk0 V c 2 t) (iblk0 V c 3 t) (iblk0 V c 4 t) (ix2 p j)
    = result V c (((cfg0.win 5).blk t).view.emb (ix2 p j))
  refine (Body0.stored_apply (iblk0 V c 0 t) (iblk0 V c 1 t) (iblk0 V c 2 t) (iblk0 V c 3 t) (iblk0 V c 4 t) p j).trans ?_
  have hi0 : ((((cfg0.win 5).blk t).view.emb (ix2 p j)) 0).val = 5000 * t.val + p.val := by
    show win0_5.index t (0 : Fin 2) * 5000 + 1 * p.val = _; rw [e]; omega
  have hi1 : ((((cfg0.win 5).blk t).view.emb (ix2 p j)) 1).val = j.val := by
    show win0_5.index t (1 : Fin 2) * 128 + 1 * j.val = _; rw [e']; omega
  generalize ((cfg0.win 5).blk t).view.emb (ix2 p j) = i at hi0 hi1
  have hj : (⟨(i 1).val, idx2_lt1 (n0 := 100000) (n1 := 128) i⟩ : Fin 128) = j := Fin.ext hi1
  simp only [result, SageLayer.reluCombine, SageLayer.combine, SageLayer.combineAt]
  rw [hj]
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · exact means_blk V c t (ix2 p k) (ix2 ⟨(i 0).val, idx2_lt0 (n0 := 100000) (n1 := 128) i⟩ k) hi0 rfl
  · exact wl_blk V c t (ix2 k j)
  · exact feats_blk V c t (ix2 p k) (ix2 ⟨(i 0).val, idx2_lt0 (n0 := 100000) (n1 := 128) i⟩ k) hi0 rfl
  · exact wr_blk V c t (ix2 k j)
  · exact bias_blk V c t (ix2 (0 : Fin 1) j)

/-- An index of the result is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every index of the result is in the block of the point its row selects: row r belongs to point r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, -, -, e, e'⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e, ht]; omega
  | ⟨1, _⟩ => show win0_5.index t (1 : Fin 2) * 128 ≤ (i 1).val ∧ (i 1).val < win0_5.index t (1 : Fin 2) * 128 + 128; rw [e']; omega

/-- The result array after the call's last point is `result` of the arrays the call found. -/
theorem array_eq (c : Dev nD) : (dat0 V c).arrAt 5 cfg0.N = result V c :=
  (dat0 V c).arrAt_eq_of_cover 5 (result V c) (fun t _ => flushed_eq V c t) cover

end Cert.KernelIdeal.Region0

end
-- ==== Proof.Body1.lean ====
/-
  What one grid point of the second layer's kernel stores, read at an entry of its block.

  The body loads a block of 5000 rows of the neighbour means and the same 5000 rows of the node features (each [5000, 128]),
  the two whole weight matrices ([128, 40]) and the bias as a row ([1, 40]); it narrows the four matrices to bf16, which over
  the extended reals changes nothing, multiplies means by the left weights and features by the right weights into zero
  accumulators, adds the two products, adds the bias row spread down the 5000 rows, with no rectifier after it.
  So entry (p, j) of the stored block is

      (Σ_k means(p, k) · Wl(k, j) + Σ_k feats(p, k) · Wr(k, j)) + bias(0, j),

  the sums over the 128 input features: a product into a zero accumulator is the plain sum (0 + s = s on the extended reals),
  and the contraction is of the left operand's columns with the right operand's rows.
-/
import proofs.«181931_j19542101197287_1_alg».proof.Proof.Gen.KernelIdeal.Frame
import proofs.«181931_j19542101197287_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body1

open Idealize.ShloMosaic Idealize.ShloMosaic.ValueIdx Cert.KernelIdeal Cert.KernelIdeal.Gen

/-- Every load and the store of the body start at the origin of their buffers. -/
theorem hz : (![0, 0] : Fin 2 → Nat) = fun _ => 0 := funext fun a => by fin_cases a <;> rfl

/-- The body's two products are plain [5000, 128] × [128, 40] products: the left operand is read at (row, k), the right at
    (k, column), k over the one contracted axis of extent 128. -/
theorem plain : PlainDot.IsPlain (M := 5000) (K := 128) (N := 40) dot_S5000x128_S128x40_S5000x40_1_0_0_1_n_n where
  rank := rfl
  size := rfl
  lhs0 i q := by
    unfold DotDims.lhsIdx
    rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
    rfl
  lhs1 i q := dot_S5000x128_S128x40_S5000x40_1_0_0_1_n_n.lhsIdx_val_of_single rfl i q
  rhs0 i q := dot_S5000x128_S128x40_S5000x40_1_0_0_1_n_n.rhsIdx_val_of_single rfl i q
  rhs1 i q := by
    unfold DotDims.rhsIdx
    rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
    rfl

/-- Entry (p, j) of the block the body stores, from the five blocks it loads: the means' and the features' rows p against
    column j of the two weight matrices, plus the bias at j. -/
theorem stored_apply (x0 x1 : Vec Ideal S5000x128 .f32) (x2 x3 : Vec Ideal S128x40 .f32) (x4 : Vec Ideal S1x40 .f32)
    (p : Fin 5000) (j : Fin 40) :
    out1_5 (F := Ideal) x0 x1 x2 x3 x4 (ix2 p j)
      = (∑ k : Fin 128, x0 (ix2 p k) * x2 (ix2 k j) + ∑ k : Fin 128, x1 (ix2 p k) * x3 (ix2 k j)) + x4 (ix2 (0 : Fin 1) j) := by
  unfold out1_5
  rw [View.canon_unit_zero hz]
  simp only [View.ld_unit_zero (S := S5000x128) hz, View.ld_unit_zero (S := S128x40) hz, View.ld_unit_zero (S := S1x40) hz]
  unfold k1_pay1
  simp only [shapeCast_self]
  show (FloatOps.matmul dot_S5000x128_S128x40_S5000x40_1_0_0_1_n_n none (truncf FTy.bf16 x0 bitsLt_bf16_f32) (truncf FTy.bf16 x2 bitsLt_bf16_f32) (constant (F := Ideal) S5000x40 FTy.f32 0x00000000#32) (ix2 p j)
      + FloatOps.matmul dot_S5000x128_S128x40_S5000x40_1_0_0_1_n_n none (truncf FTy.bf16 x1 bitsLt_bf16_f32) (truncf FTy.bf16 x3 bitsLt_bf16_f32) (constant (F := Ideal) S5000x40 FTy.f32 0x00000000#32) (ix2 p j))
      + broadcastTo S5000x40 x4 broadcasts_S1x40_S5000x40 (ix2 p j) = _
  refine congrArg₂ (· + ·) (congrArg₂ (· + ·) ?_ ?_) ?_
  · exact PlainDot.matmul_zero_apply _ plain none _ _ p j
  · exact PlainDot.matmul_zero_apply _ plain none _ _ p j
  · exact broadcastTo_1b_ab_apply x4 broadcasts_S1x40_S5000x40 p j

end Cert.KernelIdeal.Body1

end
-- ==== Proof.Region1.lean ====
/-
  The second layer's result array after its pallas_call, as one function of the arrays the call finds.

  The grid has 20 points. At point t the call fetches rows 5000·t … 5000·t + 4999 of the neighbour means and of the node
  features, the whole of the two weight matrices and of the bias row (their block index is (0, 0) at every point), runs the
  body, and writes the stored block back to rows 5000·t … 5000·t + 4999 of the result. The 20 blocks tile the 100000 rows, so
  row r of the result is written by point r / 5000 and by no other, and entry (r, j) is the body's entry (r − 5000·(r / 5000), j)
  at that point: the combine of row r of the means and of the features with column j of the weights and the bias at j.
  The blocking of the rows does not show in the result: each entry's sums run over the 128 input features only.
-/
import proofs.«181931_j19542101197287_1_alg».proof.Proof.Body1
import proofs.«181931_j19542101197287_1_alg».proof.Proof.Spec

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The result array the call leaves, from the arrays it finds: the combine of the means and the features with
    the two weight matrices and the bias row. -/
def result (c : Dev nD) : S100000x40.Idx → EReal :=
  SageLayer.combine (N := 100000) (K := 128) (D := 40) (V c main_v43) (V c main_v24) (V c main_arg5) (V c main_arg6) (fun j => V c main_v44 (ix2 (0 : Fin 1) j))

/-- The printed index maps, decided over the 20 points: the row blocks of the means, the features and the result move with the
    point; the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry y of the means' block at point t is the means at row 5000·t + y₀, column y₁. -/
theorem means_blk (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v43 : S100000x128.Idx → EReal) i := by
  obtain ⟨e, e', -⟩ := idx_facts t
  unfold iblk1
  rw [View.read_apply]
  show V c main_v43 _ = V c main_v43 _
  refine congrArg _ (funext fun a => Fin.ext ?_)
  match a with
  | ⟨0, _⟩ => show win1_0.index t (0 : Fin 2) * 5000 + 1 * (y 0).val = (i 0).val; rw [e, h0]; omega
  | ⟨1, _⟩ => show win1_0.index t (1 : Fin 2) * 128 + 1 * (y 1).val = (i 1).val; rw [e', h1]; omega

/-- Entry y of the features' block at point t is the features at row 5000·t + y₀, column y₁. -/
theorem feats_blk (c : Dev nD) (t : Fin cfg1.N) (y : S5000x128.Idx) (i : S100000x128.Idx)
    (h0 : (i 0).val = 5000 * t.val + (y 0).val) (h1 : (i 1).val = (y 1).val) :
    (iblk1 V c 1 t : Vec Ideal S5000x128 .f32) y = (V c main_v24 : S100000x128.Idx → EReal) i := by
  obtain ⟨-, -, e, e', -⟩ := idx_facts t
  unfold iblk1
  rw [View.read_apply]
  show V c main_v24 _ = V c main_v24 _
  refine congrArg _ (funext fun a => Fin.ext ?_)
  match a with
  | ⟨0, _⟩ => show win1_1.index t (0 : Fin 2) * 5000 + 1 * (y 0).val = (i 0).val; rw [e, h0]; omega
  | ⟨1, _⟩ => show win1_1.index t (1 : Fin 2) * 128 + 1 * (y 1).val = (i 1).val; rw [e', h1]; omega

/-- The left weights' block is the whole matrix at every point. -/
theorem wl_blk (c : Dev nD) (t : Fin cfg1.N) (y : S128x40.Idx) :
    (iblk1 V c 2 t : Vec Ideal S128x40 .f32) y = (V c main_arg5 : S128x40.Idx → EReal) y := by
  obtain ⟨-, -, -, -, e, e', -⟩ := idx_facts t
  unfold iblk1
  rw [View.read_apply]
  show V c main_arg5 _ = V c main_arg5 _
  refine congrArg _ (funext fun a => Fin.ext ?_)
  match a with
  | ⟨0, _⟩ => show win1_2.index t (0 : Fin 2) * 128 + 1 * (y 0).val = (y 0).val; rw [e]; omega
  | ⟨1, _⟩ => show win1_2.index t (1 : Fin 2) * 40 + 1 * (y 1).val = (y 1).val; rw [e']; omega

/-- The right weights' block is the whole matrix at every point. -/
theorem wr_blk (c : Dev nD) (t : Fin cfg1.N) (y : S128x40.Idx) :
    (iblk1 V c 3 t : Vec Ideal S128x40 .f32) y = (V c main_arg6 : S128x40.Idx → EReal) y := by
  obtain ⟨-, -, -, -, -, -, e, e', -⟩ := idx_facts t
  unfold iblk1
  rw [View.read_apply]
  show V c main_arg6 _ = V c main_arg6 _
  refine congrArg _ (funext fun a => Fin.ext ?_)
  match a with
  | ⟨0, _⟩ => show win1_3.index t (0 : Fin 2) * 128 + 1 * (y 0).val = (y 0).val; rw [e]; omega
  | ⟨1, _⟩ => show win1_3.index t (1 : Fin 2) * 40 + 1 * (y 1).val = (y 1).val; rw [e']; omega

/-- The bias row's block is the whole row at every point. -/
theorem bias_blk (c : Dev nD) (t : Fin cfg1.N) (y : S1x40.Idx) :
    (iblk1 V c 4 t : Vec Ideal S1x40 .f32) y = (V c main_v44 : S1x40.Idx → EReal) y := by
  obtain ⟨-, -, -, -, -, -, -, -, e, e', -⟩ := idx_facts t
  unfold iblk1
  rw [View.read_apply]
  show V c main_v44 _ = V c main_v44 _
  refine congrArg _ (funext fun a => Fin.ext ?_)
  match a with
  | ⟨0, _⟩ => show win1_4.index t (0 : Fin 2) * 1 + 1 * (y 0).val = (y 0).val; rw [e]; omega
  | ⟨1, _⟩ => show win1_4.index t (1 : Fin 2) * 40 + 1 * (y 1).val = (y 1).val; rw [e']; omega

/-- What point t writes back is block t of `result`: rows 5000·t … 5000·t + 4999. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  obtain ⟨-, -, -, -, -, -, -, -, -, -, e, e'⟩ := idx_facts t
  funext y
  obtain ⟨p, j, rfl⟩ : ∃ (p : Fin 5000) (j : Fin 40), y = ix2 p j := ⟨y 0, y 1, eq_ix2 y⟩
  show out1_5 (iblk1 V c 0 t) (iblk1 V c 1 t) (iblk1 V c 2 t) (iblk1 V c 3 t) (iblk1 V c 4 t) (ix2 p j)
    = result V c (((cfg1.win 5).blk t).view.emb (ix2 p j))
  refine (Body1.stored_apply (iblk1 V c 0 t) (iblk1 V c 1 t) (iblk1 V c 2 t) (iblk1 V c 3 t) (iblk1 V c 4 t) p j).trans ?_
  have hi0 : ((((cfg1.win 5).blk t).view.emb (ix2 p j)) 0).val = 5000 * t.val + p.val := by
    show win1_5.index t (0 : Fin 2) * 5000 + 1 * p.val = _; rw [e]; omega
  have hi1 : ((((cfg1.win 5).blk t).view.emb (ix2 p j)) 1).val = j.val := by
    show win1_5.index t (1 : Fin 2) * 40 + 1 * j.val = _; rw [e']; omega
  generalize ((cfg1.win 5).blk t).view.emb (ix2 p j) = i at hi0 hi1
  have hj : (⟨(i 1).val, idx2_lt1 (n0 := 100000) (n1 := 40) i⟩ : Fin 40) = j := Fin.ext hi1
  simp only [result, SageLayer.combine, SageLayer.combineAt]
  rw [hj]
  refine congrArg₂ (· + ·) (congrArg₂ (· + ·) (Finset.sum_congr rfl fun k _ => congrArg₂ (· * ·) ?_ ?_) (Finset.sum_congr rfl fun k _ => congrArg₂ (· * ·) ?_ ?_)) ?_
  · exact means_blk V c t (ix2 p k) (ix2 ⟨(i 0).val, idx2_lt0 (n0 := 100000) (n1 := 40) i⟩ k) hi0 rfl
  · exact wl_blk V c t (ix2 k j)
  · exact feats_blk V c t (ix2 p k) (ix2 ⟨(i 0).val, idx2_lt0 (n0 := 100000) (n1 := 40) i⟩ k) hi0 rfl
  · exact wr_blk V c t (ix2 k j)
  · exact bias_blk V c t (ix2 (0 : Fin 1) j)

/-- An index of the result is in point t's block iff each coordinate is in the block's range on its axis. -/
theorem mem_blk (t : Fin cfg1.N) (i : S100000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v45).slice (win1_5.rect t)).set ↔ _
  rw [View.set_slice_whole, Rect.mem_set_unit]
  exact Iff.rfl

/-- Every index of the result is in the block of the point its row selects: row r belongs to point r / 5000. -/
theorem cover (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, e, e'⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e, ht]; omega
  | ⟨1, _⟩ => show win1_5.index t (1 : Fin 2) * 40 ≤ (i 1).val ∧ (i 1).val < win1_5.index t (1 : Fin 2) * 40 + 40; rw [e']; omega

/-- The result array after the call's last point is `result` of the arrays the call found. -/
theorem array_eq (c : Dev nD) : (dat1 V c).arrAt 5 cfg1.N = result V c :=
  (dat1 V c).arrAt_eq_of_cover 5 (result V c) (fun t _ => flushed_eq V c t) cover

end Cert.KernelIdeal.Region1

end
-- ==== Proof.Host.lean ====
/-
  The host operations of the kernel's program, read as functions of what they find.

  Both pallas_calls are preceded by the same chain of host operations, the mean over in-neighbours. From the edge list
  (a [2, 800000] integer array: row 0 the source node of each edge, row 1 its destination) and a feature array h ([100000, 128])
  the chain gathers the source's features for every edge (a negative source index first wrapped by +100000), adds them into the
  destination's row starting from zeros, counts the edges into each destination the same way from ones, and divides each row's
  sum by max(count, 1). Nothing in this certificate depends on what that chain computes: it is ONE function `agg` of the two
  endpoint lists and the feature array, and both programs apply it — the first layer to the input features, the second to the
  hidden features.

  Besides the mean each stretch recasts a bias vector [d] as a row [1, d], and the first stretch also computes the two endpoint
  lists, which the second stretch reads again.
-/
import proofs.«181931_j19542101197287_1_alg».proof.Proof.Gen.KernelIdeal.Frame
import Idealize.ShloMosaic.Lib.StableHlo.Run
import Idealize.ShloMosaic.PureOps.Ideal

noncomputable section

namespace Cert.KernelIdeal.Host

open Idealize.ShloMosaic Idealize.ShloMosaic.TcCoe Idealize.SL.Sem Idealize.ShloMosaic.StableHlo
open Cert.KernelIdeal Cert.KernelIdeal.Gen

/-- The source node of every edge: row 0 of the edge list. -/
def src (ei : IVec S2x800000 32) : IVec S800000 32 :=
  shapeCast S800000 (extractStridedSlice S1x800000 ![0, 0] ei slices_S2x800000_S1x800000_0_0) shapeCasts_S1x800000_S800000

/-- The destination node of every edge: row 1 of the edge list. -/
def dst (ei : IVec S2x800000 32) : IVec S800000 32 :=
  shapeCast S800000 (extractStridedSlice S1x800000 ![1, 0] ei slices_S2x800000_S1x800000_1_0) shapeCasts_S1x800000_S800000

/-- The mean of the features h over each node's in-neighbours, from the edges' sources s and destinations d: the rows of h at the
    sources added into the destinations' rows, each row divided by max(number of edges into it, 1). -/
def agg (s d : IVec S800000 32) (h : FVec Ideal S100000x128 .f32) : FVec Ideal S100000x128 .f32 :=
  Host.divf
    (Host.scatterAdd scatter_S100000x128_S800000x1_S800000x128_1_0_0_1
      (broadcastInDim S100000x128 ![] bcast_S_S100000x128 (constant (F := Ideal) S_ .f32 0x00000000#32))
      (broadcastInDim S800000x1 ![0] bcast_S800000_S800000x1_0 d)
      (Host.gather gather_S100000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant (F := Ideal) S_ .f32 0x00000000#32))
            (broadcastInDim S800000x1 ![0] bcast_S800000_S800000x1_0 d)
            (broadcastInDim S800000 ![] bcast_S_S800000 (constant (F := Ideal) S_ .f32 0x3F800000#32)))
          (broadcastInDim S100000 ![] bcast_S_S100000 (constant (F := Ideal) S_ .f32 0x3F800000#32)))))

variable (X : Valuation τ sig (Elt Ideal))

/-! ## The stretch before the first pallas_call -/

/-- It leaves the mean of the input features over in-neighbours in the first call's means array. -/
theorem pre0_means : StableHlo.after (hostOps0 (F := Ideal)) X (Proc.devRef .tc main_v22)
    = agg (src (X (Proc.devRef .tc main_arg1))) (dst (X (Proc.devRef .tc main_arg1))) (X (Proc.devRef .tc main_arg0)) := by
  after_results_simp; rfl

/-- It leaves the first bias as a row. -/
theorem pre0_bias : StableHlo.after (hostOps0 (F := Ideal)) X (Proc.devRef .tc main_v23)
    = shapeCast S1x128 (X (Proc.devRef .tc main_arg4) : FVec Ideal S128 .f32) shapeCasts_S128_S1x128 := by
  after_results_simp; rfl

/-- It leaves the edges' sources and destinations, which the second stretch reads again. -/
theorem pre0_src : StableHlo.after (hostOps0 (F := Ideal)) X (Proc.devRef .tc main_v1) = src (X (Proc.devRef .tc main_arg1)) := by
  after_results_simp; rfl
theorem pre0_dst : StableHlo.after (hostOps0 (F := Ideal)) X (Proc.devRef .tc main_v3) = dst (X (Proc.devRef .tc main_arg1)) := by
  after_results_simp; rfl

/-- It writes no argument array. -/
theorem pre0_arg0 : StableHlo.after (hostOps0 (F := Ideal)) X (Proc.devRef .tc main_arg0) = X (Proc.devRef .tc main_arg0) := by after_results_simp
theorem pre0_arg2 : StableHlo.after (hostOps0 (F := Ideal)) X (Proc.devRef .tc main_arg2) = X (Proc.devRef .tc main_arg2) := by after_results_simp
theorem pre0_arg3 : StableHlo.after (hostOps0 (F := Ideal)) X (Proc.devRef .tc main_arg3) = X (Proc.devRef .tc main_arg3) := by after_results_simp
theorem pre0_arg5 : StableHlo.after (hostOps0 (F := Ideal)) X (Proc.devRef .tc main_arg5) = X (Proc.devRef .tc main_arg5) := by after_results_simp
theorem pre0_arg6 : StableHlo.after (hostOps0 (F := Ideal)) X (Proc.devRef .tc main_arg6) = X (Proc.devRef .tc main_arg6) := by after_results_simp
theorem pre0_arg7 : StableHlo.after (hostOps0 (F := Ideal)) X (Proc.devRef .tc main_arg7) = X (Proc.devRef .tc main_arg7) := by after_results_simp

/-! ## The stretch between the two pallas_calls -/

/-- It leaves the mean of the hidden features (the first call's result) over in-neighbours in the second call's means array,
    by the same chain over the same endpoint lists. -/
theorem pre1_means : StableHlo.after (hostOps1 (F := Ideal)) X (Proc.devRef .tc main_v43)
    = agg (X (Proc.devRef .tc main_v1)) (X (Proc.devRef .tc main_v3)) (X (Proc.devRef .tc main_v24)) := by
  after_results_simp; rfl

/-- It leaves the second bias as a row. -/
theorem pre1_bias : StableHlo.after (hostOps1 (F := Ideal)) X (Proc.devRef .tc main_v44)
    = shapeCast S1x40 (X (Proc.devRef .tc main_arg7) : FVec Ideal S40 .f32) shapeCasts_S40_S1x40 := by
  after_results_simp; rfl

/-- It writes neither the hidden features nor the second layer's weights. -/
theorem pre1_hidden : StableHlo.after (hostOps1 (F := Ideal)) X (Proc.devRef .tc main_v24) = X (Proc.devRef .tc main_v24) := by after_results_simp
theorem pre1_arg5 : StableHlo.after (hostOps1 (F := Ideal)) X (Proc.devRef .tc main_arg5) = X (Proc.devRef .tc main_arg5) := by after_results_simp
theorem pre1_arg6 : StableHlo.after (hostOps1 (F := Ideal)) X (Proc.devRef .tc main_arg6) = X (Proc.devRef .tc main_arg6) := by after_results_simp

end Cert.KernelIdeal.Host

end
-- ==== Proof.RunNamed.lean ====
/-
  The kernel's run with its result named.

  The program is four stretches in order: host operations, the first layer's pallas_call, host operations, the second layer's
  pallas_call. Every weakly fair execution runs the four in order and terminates; the buffers' contents at the four
  boundaries are a fold from the launch memory — after a host stretch each buffer holds what the stretch's operations compute
  from the contents before it, after a pallas_call the call's arrays hold what its write-backs leave and every other buffer is
  as the call found it. The last boundary's contents are what the final state holds at every buffer that outlives the
  program, so the result buffer ends at the last boundary's contents there, and each argument array ends as launched because
  no stretch writes it.
-/
import proofs.«181931_j19542101197287_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with the
    result buffer at the last boundary's contents and the argument arrays as launched. -/
theorem run_named : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.Net.lean ====
/-
  The kernel's result buffer as one function of the launch memory's arguments.

  Read back through the boundaries of the run: the result buffer holds what the second pallas_call's write-backs leave, the
  second layer's combine of the arrays that call finds; those are the mean of the hidden features (by the stretch between the
  calls, over the endpoint lists the first stretch computed), the hidden features themselves, the second layer's weights and
  its bias as a row. The hidden features are what the first pallas_call's write-backs leave, the rectified first layer's
  combine of the arrays THAT call finds: the mean of the input features, the input features, the first layer's weights and its
  bias as a row. No stretch writes an argument array, so every argument is read at its launch contents. Put together, the
  result is the two-layer network of the arguments, with the neighbour mean as its aggregate.
-/
import proofs.«181931_j19542101197287_1_alg».proof.Proof.Region0
import proofs.«181931_j19542101197287_1_alg».proof.Proof.Region1
import proofs.«181931_j19542101197287_1_alg».proof.Proof.Host
import proofs.«181931_j19542101197287_1_alg».proof.Proof.RunNamed
import proofs.«181931_j19542101197287_1_alg».proof.Proof.Spec
import Idealize.ShloMosaic.Lib.ValueLayout

noncomputable section

namespace Cert.KernelIdeal.Net

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The neighbour mean over the launch memory's edge list. -/
def mean (c : Dev nD) : FVec Ideal S100000x128 .f32 → FVec Ideal S100000x128 .f32 :=
  Host.agg (Host.src (m ((c.tc : Thread nD τ).loc main_arg1))) (Host.dst (m ((c.tc : Thread nD τ).loc main_arg1)))

/-- The hidden features: the rectified first layer of the launch memory's arguments. -/
def hidden (c : Dev nD) : S100000x128.Idx → EReal :=
  SageLayer.reluCombine (N := 100000) (K := 128) (D := 128) (mean m c (m ((c.tc : Thread nD τ).loc main_arg0))) (m ((c.tc : Thread nD τ).loc main_arg0))
    (m ((c.tc : Thread nD τ).loc main_arg2)) (m ((c.tc : Thread nD τ).loc main_arg3)) (fun j => m ((c.tc : Thread nD τ).loc main_arg4) (ix1 j))

/-- The network's output: the second layer of the hidden features. -/
def out (c : Dev nD) : S100000x40.Idx → EReal :=
  SageLayer.combine (N := 100000) (K := 128) (D := 40) (mean m c (hidden m c)) (hidden m c)
    (m ((c.tc : Thread nD τ).loc main_arg5)) (m ((c.tc : Thread nD τ).loc main_arg6)) (fun j => m ((c.tc : Thread nD τ).loc main_arg7) (ix1 j))

/-- `out` is the two-layer network of the arguments over the neighbour mean. -/
theorem out_eq_network (c : Dev nD) : out m c = SageLayer.network (N := 100000) (K := 128) (H := 40) (mean m c)
    (m ((c.tc : Thread nD τ).loc main_arg0)) (m ((c.tc : Thread nD τ).loc main_arg2)) (m ((c.tc : Thread nD τ).loc main_arg3))
    (fun j => m ((c.tc : Thread nD τ).loc main_arg4) (ix1 j))
    (m ((c.tc : Thread nD τ).loc main_arg5)) (m ((c.tc : Thread nD τ).loc main_arg6)) (fun j => m ((c.tc : Thread nD τ).loc main_arg7) (ix1 j)) := rfl

/-- After the first pallas_call the hidden features' buffer holds `hidden`. -/
theorem hidden_eq (c : Dev nD) : W2 m ρ c (Proc.devRef .tc main_v24) = hidden m c := by
  refine (W2_arr m ρ c 5).trans ((Region0.array_eq (V1 m ρ) c).trans ?_)
  unfold Region0.result hidden mean
  have e0 : V1 m ρ c main_v22 = Host.agg (Host.src (m ((c.tc : Thread nD τ).loc main_arg1))) (Host.dst (m ((c.tc : Thread nD τ).loc main_arg1))) (m ((c.tc : Thread nD τ).loc main_arg0)) :=
    Host.pre0_means (W0 m ρ c)
  have e1 : V1 m ρ c main_arg0 = m ((c.tc : Thread nD τ).loc main_arg0) := Host.pre0_arg0 (W0 m ρ c)
  have e2 : V1 m ρ c main_arg2 = m ((c.tc : Thread nD τ).loc main_arg2) := Host.pre0_arg2 (W0 m ρ c)
  have e3 : V1 m ρ c main_arg3 = m ((c.tc : Thread nD τ).loc main_arg3) := Host.pre0_arg3 (W0 m ρ c)
  have e4 : V1 m ρ c main_v23 = shapeCast S1x128 (m ((c.tc : Thread nD τ).loc main_arg4) : FVec Ideal S128 .f32) shapeCasts_S128_S1x128 :=
    Host.pre0_bias (W0 m ρ c)
  rw [e0, e1, e2, e3, e4]
  refine congrArg _ (funext fun j => ?_)
  exact shapeCast_a_1a_apply (m ((c.tc : Thread nD τ).loc main_arg4) : FVec Ideal S128 .f32) shapeCasts_S128_S1x128 0 j

/-- After the second pallas_call the result buffer holds `out`. -/
theorem out_eq (c : Dev nD) : W4 m ρ c (Proc.devRef .tc main_v45) = out m c := by
  refine (W4_arr m ρ c 5).trans ((Region1.array_eq (V3 m ρ) c).trans ?_)
  unfold Region1.result out mean
  have hs : W2 m ρ c (Proc.devRef .tc main_v1) = Host.src (m ((c.tc : Thread nD τ).loc main_arg1)) :=
    (W2_of_ne m ρ c main_v1 (by decide)).trans (Host.pre0_src (W0 m ρ c))
  have hd : W2 m ρ c (Proc.devRef .tc main_v3) = Host.dst (m ((c.tc : Thread nD τ).loc main_arg1)) :=
    (W2_of_ne m ρ c main_v3 (by decide)).trans (Host.pre0_dst (W0 m ρ c))
  have e0 : V3 m ρ c main_v43 = Host.agg (Host.src (m ((c.tc : Thread nD τ).loc main_arg1))) (Host.dst (m ((c.tc : Thread nD τ).loc main_arg1))) (hidden m c) := by
    refine (Host.pre1_means (W2 m ρ c)).trans ?_
    rw [hs, hd, hidden_eq m ρ c]
  have e1 : V3 m ρ c main_v24 = hidden m c := (Host.pre1_hidden (W2 m ρ c)).trans (hidden_eq m ρ c)
  have e2 : V3 m ρ c main_arg5 = m ((c.tc : Thread nD τ).loc main_arg5) :=
    (Host.pre1_arg5 (W2 m ρ c)).trans ((W2_of_ne m ρ c main_arg5 (by decide)).trans (Host.pre0_arg5 (W0 m ρ c)))
  have e3 : V3 m ρ c main_arg6 = m ((c.tc : Thread nD τ).loc main_arg6) :=
    (Host.pre1_arg6 (W2 m ρ c)).trans ((W2_of_ne m ρ c main_arg6 (by decide)).trans (Host.pre0_arg6 (W0 m ρ c)))
  have e4 : V3 m ρ c main_v44 = shapeCast S1x40 (m ((c.tc : Thread nD τ).loc main_arg7) : FVec Ideal S40 .f32) shapeCasts_S40_S1x40 := by
    refine (Host.pre1_bias (W2 m ρ c)).trans ?_
    rw [show W2 m ρ c (Proc.devRef .tc main_arg7) = m ((c.tc : Thread nD τ).loc main_arg7) from
      (W2_of_ne m ρ c main_arg7 (by decide)).trans (Host.pre0_arg7 (W0 m ρ c))]
  rw [e0, e1, e2, e3, e4]
  refine congrArg _ (funext fun j => ?_)
  exact shapeCast_a_1a_apply (m ((c.tc : Thread nD τ).loc main_arg7) : FVec Ideal S40 .f32) shapeCasts_S40_S1x40 0 j

/-- The kernel's run, read: the result buffer ends at the network of the launch memory's arguments, the arguments unchanged. -/
theorem run : θ_run defs (onTc (τ := τ) (main (F := Ideal))) ⟨m, fun _ => 0, ρ⟩ (fun r => ∀ c : Dev nD,
      r.2.mem ((c.tc : Thread nD τ).loc main_v45) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (out_eq m ρ c), (h c).2⟩) (Named.run_named (F := Ideal) m ρ)

end Cert.KernelIdeal.Net

end
-- ==== Proof.RefNet.lean ====
/-
  The reference's result as the same function of its arguments.

  The reference computes, with whole-array host operations, the mean of the input features over in-neighbours, the two products
  mean · W1l and x · W1r, their sum, plus the first bias spread over the rows, rectified: entry (r, j) of that array is
  max((Σ_k mean(r, k) · W1l(k, j) + Σ_k x(r, k) · W1r(k, j)) + b1(j), 0), the host's products being the plain sums over the 128
  contracted positions. It then does the same to the hidden features with the second layer's weights and no rectifier. Its
  neighbour mean is the chain of host operations the kernel's program applies, over the same endpoint lists: the same function
  `agg`. So the reference's result is the two-layer network of the arguments over that mean.
-/
import proofs.«181931_j19542101197287_1_alg».proof.Proof.Gen.ReferenceIdeal.Run
import proofs.«181931_j19542101197287_1_alg».proof.Proof.Gen.ReferenceIdeal.Read
import proofs.«181931_j19542101197287_1_alg».proof.Proof.Host
import proofs.«181931_j19542101197287_1_alg».proof.Proof.Spec

noncomputable section

namespace Cert.ReferenceIdeal.Net

open Idealize.ShloMosaic Idealize.ShloMosaic.ValueIdx
open Cert.ReferenceIdeal Cert.ReferenceIdeal.Gen Cert.ReferenceIdeal.Read

variable (x0 : FVec Ideal S100000x128 .f32) (x1 : IVec S2x800000 32) (x2 x3 : FVec Ideal S128x128 .f32) (x4 : FVec Ideal S128 .f32)
  (x5 x6 : FVec Ideal S128x40 .f32) (x7 : FVec Ideal S40 .f32)

/-- The neighbour mean over the edge list x1: the function the kernel's program applies. -/
abbrev mean : FVec Ideal S100000x128 .f32 → FVec Ideal S100000x128 .f32 :=
  Cert.KernelIdeal.Host.agg (Cert.KernelIdeal.Host.src x1) (Cert.KernelIdeal.Host.dst x1)

/-- The reference's first mean is `agg` of the input features. -/
theorem mean_input : val_main_v22 (F := Ideal) x0 x1 = mean x1 x0 := rfl

/-- The reference's second mean is `agg` of its hidden features, over the same endpoint lists. -/
theorem mean_hidden : val_main_v48 (F := Ideal) x0 x1 x2 x3 x4 = mean x1 (val_main_v29 (F := Ideal) x0 x1 x2 x3 x4) := rfl

/-- The reference's hidden features are the rectified first layer's combine, index by index. -/
theorem hidden_eq : val_main_v29 (F := Ideal) x0 x1 x2 x3 x4
    = SageLayer.reluCombine (N := 100000) (K := 128) (D := 128) (val_main_v22 (F := Ideal) x0 x1) x0 x2 x3 (fun j => x4 (ix1 j)) := by
  funext i
  obtain ⟨r, j, rfl⟩ : ∃ (r : Fin 100000) (j : Fin 128), i = ix2 r j := ⟨i 0, i 1, eq_ix2 i⟩
  have l1 : ∀ k : Fin 128, lidx_main_v23 (ix2 r j) k = ix2 r k := fun k => funext fun a => Fin.ext (by
    match a with
    | ⟨0, _⟩ => rfl
    | ⟨1, _⟩ => rfl)
  have r1 : ∀ k : Fin 128, ridx_main_v23 (ix2 r j) k = ix2 k j := fun k => funext fun a => Fin.ext (by
    match a with
    | ⟨0, _⟩ => rfl
    | ⟨1, _⟩ => rfl)
  have l2 : ∀ k : Fin 128, lidx_main_v24 (ix2 r j) k = ix2 r k := fun k => funext fun a => Fin.ext (by
    match a with
    | ⟨0, _⟩ => rfl
    | ⟨1, _⟩ => rfl)
  have r2 : ∀ k : Fin 128, ridx_main_v24 (ix2 r j) k = ix2 k j := fun k => funext fun a => Fin.ext (by
    match a with
    | ⟨0, _⟩ => rfl
    | ⟨1, _⟩ => rfl)
  have hb : idx_main_v26 (idx_main_v27 (ix2 r j)) = ix1 j := funext fun a => Fin.ext (by
    match a with
    | ⟨0, _⟩ => rfl)
  rw [val_main_v29_apply, val_main_v28_apply, val_main_v25_apply, val_main_v23_apply, val_main_v24_apply, val_main_v27_apply,
    val_main_v26_apply, val_main_call0_v0_apply, val_main_call0_cst_apply]
  simp only [l1, r1, l2, r2, hb]
  show max ((_ + _) + _) (Ideal.ofBits .f32 0x00000000#32) = max (SageLayer.combineAt _ _ _ _ _ r j) 0
  rw [Ideal.ofBits_zero_f32]
  rfl

/-- The reference's result is the second layer's combine of its hidden features, index by index. -/
theorem out_eq : val_main_v54 (F := Ideal) x0 x1 x2 x3 x4 x5 x6 x7
    = SageLayer.combine (N := 100000) (K := 128) (D := 40) (val_main_v48 (F := Ideal) x0 x1 x2 x3 x4) (val_main_v29 (F := Ideal) x0 x1 x2 x3 x4) x5 x6
        (fun j => x7 (ix1 j)) := by
  funext i
  obtain ⟨r, j, rfl⟩ : ∃ (r : Fin 100000) (j : Fin 40), i = ix2 r j := ⟨i 0, i 1, eq_ix2 i⟩
  have l1 : ∀ k : Fin 128, lidx_main_v49 (ix2 r j) k = ix2 r k := fun k => funext fun a => Fin.ext (by
    match a with
    | ⟨0, _⟩ => rfl
    | ⟨1, _⟩ => rfl)
  have r1 : ∀ k : Fin 128, ridx_main_v49 (ix2 r j) k = ix2 k j := fun k => funext fun a => Fin.ext (by
    match a with
    | ⟨0, _⟩ => rfl
    | ⟨1, _⟩ => rfl)
  have l2 : ∀ k : Fin 128, lidx_main_v50 (ix2 r j) k = ix2 r k := fun k => funext fun a => Fin.ext (by
    match a with
    | ⟨0, _⟩ => rfl
    | ⟨1, _⟩ => rfl)
  have r2 : ∀ k : Fin 128, ridx_main_v50 (ix2 r j) k = ix2 k j := fun k => funext fun a => Fin.ext (by
    match a with
    | ⟨0, _⟩ => rfl
    | ⟨1, _⟩ => rfl)
  have hb : idx_main_v52 (idx_main_v53 (ix2 r j)) = ix1 j := funext fun a => Fin.ext (by
    match a with
    | ⟨0, _⟩ => rfl)
  rw [val_main_v54_apply, val_main_v51_apply, val_main_v49_apply, val_main_v50_apply, val_main_v53_apply, val_main_v52_apply]
  simp only [l1, r1, l2, r2, hb]
  rfl

/-- The reference's result stage is the two-layer network of its arguments over the neighbour mean. -/
theorem network_eq : val_main_v54 (F := Ideal) x0 x1 x2 x3 x4 x5 x6 x7
    = SageLayer.network (N := 100000) (K := 128) (H := 40) (mean x1) x0 x2 x3 (fun j => x4 (ix1 j)) x5 x6 (fun j => x7 (ix1 j)) := by
  rw [out_eq, mean_hidden, hidden_eq, mean_input]
  rfl

end Cert.ReferenceIdeal.Net

end
-- ==== Proof.lean ====
/-
  A two-layer GraphSAGE network over 100000 nodes and 800000 edges: the kernel's program against its plain reference, equal as
  extended reals.

  Both programs compute, per layer, the mean of the features over each node's in-neighbours by the same chain of host operations
  (a gather of the sources' rows, a scatter-add into the destinations' rows, a division by max(count, 1)), and then the dense
  combine mean · Wl + x · Wr + b — rectified after the first layer. The reference forms the combine with whole-array products;
  the kernel's program forms it in a pallas_call per layer, 5000 rows of nodes per grid point, with the four matrices narrowed to
  bf16 before the products. Over the extended reals a change of float format is the identity, a product into a zero accumulator
  is the plain sum over the 128 contracted positions, and a row of the result depends only on the same row of the means and the
  features, so the 20 row blocks assemble to the reference's whole-array combine entry by entry. The neighbour mean is carried
  through as one function applied on both sides to equal arrays. No step distributes a product over a sum or cancels, so the
  finiteness the precondition grants is not used; the idealization rewrote nothing, so `preserves` has nothing to state.

  The modules: Spec (the layer and the network as functions, with no program), Body0 / Body1 (what one grid point stores),
  Region0 / Region1 (each call's result array from the arrays it finds), Host (the host stretches, the neighbour mean as one
  function), RunNamed (the run with its result buffer named), Net (the kernel's result as the network of its arguments), RefNet
  (the reference's result as the same network).
-/
import proofs.«181931_j19542101197287_1_alg».proof.Defs
import proofs.«181931_j19542101197287_1_alg».proof.Proof.Gen.Kernel
import proofs.«181931_j19542101197287_1_alg».proof.Proof.Gen.Kernel.Frame
import proofs.«181931_j19542101197287_1_alg».proof.Proof.Gen.KernelIdeal
import proofs.«181931_j19542101197287_1_alg».proof.Proof.Gen.KernelIdeal.Frame
import proofs.«181931_j19542101197287_1_alg».proof.Proof.Gen.ReferenceIdeal
import proofs.«181931_j19542101197287_1_alg».proof.Proof.Gen.ReferenceIdeal.Run
import proofs.«181931_j19542101197287_1_alg».proof.Proof.Gen.ReferenceIdeal.Read
import proofs.«181931_j19542101197287_1_alg».proof.Proof.Gen.Pre_finite_inputs
import proofs.«181931_j19542101197287_1_alg».proof.Proof.Net
import proofs.«181931_j19542101197287_1_alg».proof.Proof.RefNet
import Idealize.ShloMosaic.Adequacy
import Idealize.ShloMosaic.Init

noncomputable section

namespace Cert.Proof

open Idealize.ShloMosaic Idealize.SL.Sem

/-- The kernel's program as printed runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two programs end with equal results: each result is the two-layer network of
    the arguments over the neighbour mean. -/
theorem algebraic : Cert.algebraic_KernelIdeal_ReferenceIdeal := by
  intro m ρ m' ρ' _ hagree
  refine ⟨fun c => Cert.KernelIdeal.Net.out m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  show Cert.ReferenceIdeal.Value.res_main_v54 m' c = Cert.KernelIdeal.Net.out m c
  rw [Cert.ReferenceIdeal.Read.val_main_v54_eq, Cert.ReferenceIdeal.Net.network_eq, a0, a1, a2, a3, a4, a5, a6, a7,
    Cert.KernelIdeal.Net.out_eq_network]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
